-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S128x512 : Shape := ⟨2, ![128, 512]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128x512 .f32) (main_arg4 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_cst_8 : FVec F S_ .f32 := constant S_ .f32 0x00000000#32
  let main_v24 : FVec F S128x512 .f32 := broadcastInDim S128x512 ![] bcast_S_S128x512 main_cst_8
  let main_v25 : IVec S128x512 1 := cmpf .ogt main_arg3 main_v24
  let main_c_9 : IVec S_ 1 := constantI S_ 1 1#1
  let main_v26 : IVec S_ 1 := (fun x v => Host.reduce IntOp.andi x v reducesTo_S128x512_S_d0_1 h_S_) main_v25 main_c_9
  let main_v27 : IVec S_ 1 := andi main_v23 main_v26
  main_v27

def fn {F : FTy → Type} [FloatOps F] (main_arg0 : FVec F S4096x256 .f32) (main_arg1 : FVec F S4096x256 .f32) (main_arg2 : FVec F S128x512 .f32) (main_arg3 : FVec F S128x512 .f32) (main_arg4 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg3 main_arg4 main_v13 main_v16
-- ==== Kernel.lean ====
abbrev S4096x256 : Shape := ⟨2, ![4096, 256]⟩
abbrev S128x512 : Shape := ⟨2, ![128, 512]⟩
abbrev S128 : Shape := ⟨1, ![128]⟩
abbrev S_ : Shape := ⟨0, ![]⟩
abbrev S128x256 : Shape := ⟨2, ![128, 256]⟩
abbrev S256x128 : Shape := ⟨2, ![256, 128]⟩
abbrev S1x128 : Shape := ⟨2, ![1, 128]⟩
abbrev S4096x128 : Shape := ⟨2, ![4096, 128]⟩
abbrev S512x256 : Shape := ⟨2, ![512, 256]⟩
abbrev S512x128 : Shape := ⟨2, ![512, 128]⟩

abbrev nBuf : Space → Nat
  | .hbm => 45
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x256, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S256x128, .f32⟩
  | .hbm, ⟨18, _⟩ => ⟨S256x128, .bf16⟩
  | .hbm, ⟨19, _⟩ => ⟨S256x128, .f32⟩
  | .hbm, ⟨20, _⟩ => ⟨S256x128, .bf16⟩
  | .hbm, ⟨21, _⟩ => ⟨S256x128, .f32⟩
  | .hbm, ⟨22, _⟩ => ⟨S256x128, .bf16⟩
  | .hbm, ⟨23, _⟩ => ⟨S256x128, .f32⟩
  | .hbm, ⟨24, _⟩ => ⟨S256x128, .bf16⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128, .f32⟩
  | .hbm, ⟨29, _⟩ => ⟨S128x512, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S1x128, .f32⟩
  | .local _ .vmem, ⟨9, _⟩ => ⟨S512x128, .f32⟩
  | .local _ .vmem, ⟨10, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S128x512 : S_.BroadcastsInDim S128x512 (![] : Fin 0 → Fin S128x512.rank)
  slices_S128x512_S128x256_0_0 : S128x512.Slices ![0, 0] S128x256
  slices_S128x512_S128x256_0_256 : S128x512.Slices ![0, 256] S128x256
  transposes_S128x256_S256x128_1_0 : S128x256.Transposes [1, 0] S256x128
  bitsLt_bf16_f32 : FTy.bits .bf16 < FTy.bits .f32
  reducesTo_S128x512_S128_d1 : S128x512.ReducesTo [1] S128
  h_S_ : 0 < S_.numel
  bcast_S_S128 : S_.BroadcastsInDim S128 (![] : Fin 0 → Fin S128.rank)
  shapeCasts_S128_S1x128 : S128.ShapeCasts S1x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S128x512 : Shape := ⟨2, ![128, 512]⟩
abbrev S128 : Shape := ⟨1, ![128]⟩
abbrev S4096x512 : Shape := ⟨2, ![4096, 512]⟩
abbrev S4096x1x512 : Shape := ⟨3, ![4096, 1, 512]⟩
abbrev S1x128x512 : Shape := ⟨3, ![1, 128, 512]⟩
abbrev S4096x128x512 : Shape := ⟨3, ![4096, 128, 512]⟩
abbrev S_ : Shape := ⟨0, ![]⟩
abbrev S4096x128 : Shape := ⟨2, ![4096, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S4096x512, .f32⟩
  | .hbm, ⟨6, _⟩ => ⟨S4096x1x512, .f32⟩
  | .hbm, ⟨7, _⟩ => ⟨S1x128x512, .f32⟩
  | .hbm, ⟨8, _⟩ => ⟨S4096x128x512, .f32⟩
  | .hbm, ⟨9, _⟩ => ⟨S4096x128x512, .f32⟩
  | .hbm, ⟨10, _⟩ => ⟨S4096x128x512, .f32⟩
  | .hbm, ⟨11, _⟩ => ⟨S1x128x512, .f32⟩
  | .hbm, ⟨12, _⟩ => ⟨S4096x128x512, .f32⟩
  | .hbm, ⟨13, _⟩ => ⟨S4096x128x512, .f32⟩
  | .hbm, ⟨14, _⟩ => ⟨S_, .f32⟩
  | .hbm, ⟨15, _⟩ => ⟨S4096x128x512, .f32⟩
  | .hbm, ⟨16, _⟩ => ⟨S4096x128x512, .f32⟩
  | .hbm, ⟨17, _⟩ => ⟨S4096x128x512, .f32⟩
  | .hbm, ⟨18, _⟩ => ⟨S128x512, .f32⟩
  | .hbm, ⟨19, _⟩ => ⟨S1x128x512, .f32⟩
  | .hbm, ⟨20, _⟩ => ⟨S4096x128x512, .f32⟩
  | .hbm, ⟨21, _⟩ => ⟨S4096x128x512, .f32⟩
  | .hbm, ⟨22, _⟩ => ⟨S_, .f32⟩
  | .hbm, ⟨23, _⟩ => ⟨S4096x128x512, .f32⟩
  | .hbm, ⟨24, _⟩ => ⟨S4096x128x512, .f32⟩
  | .hbm, ⟨25, _⟩ => ⟨S_, .f32⟩
  | .hbm, ⟨26, _⟩ => ⟨S4096x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S4096x128, .f32⟩
  | .hbm, ⟨32, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  concatenates_S4096x256_S4096x256_S4096x512_d1 : Shape.Concatenates [S4096x256, S4096x256] S4096x512 1
  bcast_S4096x512_S4096x1x512_0_2 : S4096x512.BroadcastsInDim S4096x1x512 (![0, 2] : Fin 2 → Fin S4096x1x512.rank)
  bcast_S128x512_S1x128x512_1_2 : S128x512.BroadcastsInDim S1x128x512 (![1, 2] : Fin 2 → Fin S1x128x512.rank)
  bcast_S4096x1x512_S4096x128x512_0_1_2 : S4096x1x512.BroadcastsInDim S4096x128x512 (![0, 1, 2] : Fin 3 → Fin S4096x128x512.rank)
  bcast_S1x128x512_S4096x128x512_0_1_2 : S1x128x512.BroadcastsInDim S4096x128x512 (![0, 1, 2] : Fin 3 → Fin S4096x128x512.rank)
  bcast_S_S4096x128x512 : S_.BroadcastsInDim S4096x128x512 (![] : Fin 0 → Fin S4096x128x512.rank)
  reducesTo_S4096x128x512_S4096x128_d2 : S4096x128x512.ReducesTo [2] S4096x128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)

variable [Facts₀]

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.ScoreTile.lean ====
/-
  One entry of the tile the kernel body stores.

  The body holds a block of 512 samples — their subject halves `xs` and object halves `xo`, 512 × 256 each —
  and, whole, four 256 × 128 weight matrices and a 1 × 128 row of per-relation offsets. What it stores at
  (sample p, relation q) is

      (Σₖ xs(p,k)²·w₁ˢ(k,q) + Σₖ xo(p,k)²·w₁ᵒ(k,q)) + (Σₖ xs(p,k)·w₂ˢ(k,q) + Σₖ xo(p,k)·w₂ᵒ(k,q)) + offset(0,q):

  four matrix products into a zero accumulator, each an exact inner product over the extended reals whatever the
  operands' storage format (a change of float format is the identity there), added in that order, and the offsets'
  row repeated down the 512 samples.
-/
import proofs.«118852_j65051574665468_2_alg».proof.Proof.Gen.KernelIdeal.Skeleton
import proofs.«118852_j65051574665468_2_alg».proof.Proof.LibPlainMatmul
import Idealize.ShloMosaic.Lib.ValueLayout
import Idealize.ShloMosaic.Lib.Pipeline.Value

noncomputable section

open Idealize.ShloMosaic Idealize.ShloMosaic.ValueIdx Idealize.ShloMosaic.View

namespace Cert.GaussianScore

open Cert.KernelIdeal Cert.KernelIdeal.Gen

/-- The stored tile at (p, q). -/
theorem tile_apply (xs xo : Vec Ideal S512x256 .f32) (w1s w1o w2s w2o : Vec Ideal S256x128 .bf16)
    (off : Vec Ideal S1x128 .f32) (p : Fin 512) (q : Fin 128) :
    k0_pay1 (F := Ideal) xs xo w1s w1o w2s w2o off (ix2 p q)
      = ((∑ k : Fin 256, (xs (ix2 p k) * xs (ix2 p k)) * w1s (ix2 k q)
            + ∑ k : Fin 256, (xo (ix2 p k) * xo (ix2 p k)) * w1o (ix2 k q))
          + (∑ k : Fin 256, xs (ix2 p k) * w2s (ix2 k q) + ∑ k : Fin 256, xo (ix2 p k) * w2o (ix2 k q)))
        + off (ix2 (0 : Fin 1) q) := by
  unfold k0_pay1
  simp only [addf_apply, matmul,
    Cert.LibPlainMatmul.matmul_zero_apply dot_S512x256_S256x128_S512x128_1_0_0_1_n_n rfl rfl rfl rfl rfl rfl,
    truncf_apply, mulf_apply, shapeCast_self, broadcastTo_1b_ab_apply]

end Cert.GaussianScore

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.Consts.lean ====
/-
  The float constants of the Gaussian log-score, read as real numbers.

  Five single-precision patterns occur in the two programs: minus one half (the factor of the squared
  deviation), one (the numerator of the reciprocal variance), 512 (the number of summed dimensions, which
  multiplies the prior), the per-dimension offset c₀ = 15417230 · 2⁻²⁴ (the nearest float to ½·log 2π), and the
  offset of a whole row, 15417230 · 2⁻¹⁵. The last is exactly 512 · c₀: multiplying a float by a power of two
  only moves its exponent, so summing c₀ over the 512 dimensions gives the row offset with no error.
-/
import Idealize.ShloMosaic.PureOps.Ideal.Laws

noncomputable section

open Idealize.ShloMosaic

namespace Cert.GaussianScore

/-- The per-dimension offset, the float nearest to ½·log 2π. -/
def c₀ : ℝ := 15417230 / 2 ^ 24

/-- The pattern `0xBF000000` is minus one half. -/
theorem ofBits_negHalf : Ideal.ofBits .f32 0xBF000000#32 = ((-1 / 2 : ℝ) : EReal) := by
  simp [Ideal.ofBits, Ideal.ieee]
  have h : (-((8388608 : ℝ) * ((2 : ℝ) ^ 24)⁻¹)) = -1 / 2 := by norm_num
  exact_mod_cast h

/-- The pattern `0x3F800000` is one. -/
theorem ofBits_one : Ideal.ofBits .f32 0x3F800000#32 = ((1 : ℝ) : EReal) := by
  simp [Ideal.ofBits, Ideal.ieee]
  have h : ((8388608 : ℝ) * ((2 : ℝ) ^ 23)⁻¹) = 1 := by norm_num
  exact_mod_cast h

/-- The pattern `0x44000000` is 512. -/
theorem ofBits_512 : Ideal.ofBits .f32 0x44000000#32 = ((512 : ℝ) : EReal) := by
  simp [Ideal.ofBits, Ideal.ieee]
  have h : ((8388608 : ℝ) * ((2 : ℝ) ^ 14)⁻¹) = 512 := by norm_num
  exact_mod_cast h

/-- The pattern `0x3F6B3F8E` is the per-dimension offset. -/
theorem ofBits_c₀ : Ideal.ofBits .f32 0x3F6B3F8E#32 = ((c₀ : ℝ) : EReal) := by
  simp [Ideal.ofBits, Ideal.ieee, c₀]
  have h : ((15417230 : ℝ) * ((2 : ℝ) ^ 24)⁻¹) = 15417230 / 2 ^ 24 := by norm_num
  exact_mod_cast h

/-- The pattern `0x43EB3F8E` is the offset of a whole row of 512 dimensions. -/
theorem ofBits_rowOffset : Ideal.ofBits .f32 0x43EB3F8E#32 = ((512 * c₀ : ℝ) : EReal) := by
  simp [Ideal.ofBits, Ideal.ieee, c₀]
  have h : ((15417230 : ℝ) * ((2 : ℝ) ^ 15)⁻¹) = 512 * (15417230 / 2 ^ 24) := by norm_num
  exact_mod_cast h

end Cert.GaussianScore

end
-- ==== Proof.RowAlgebra.lean ====
/-
  The Gaussian log-score of one sample against one relation, two ways.

  A sample is a row `x` of 512 numbers — the subject embedding followed by the object embedding, 256 each — and a
  relation has a mean `μ`, a spread `σ` (512 numbers each) and a prior `p`. The DIRECT score adds, over the
  dimensions, `-½·((x - μ)/σ)² - log σ - c₀`, and then `512·p`. The EXPANDED score opens the square,

      -½·(x - μ)²/σ² = x²·(-½/σ²) + x·(μ/σ²) - ½·μ²/σ²,

  so that the part depending on the sample is two inner products with per-relation weights (taken over the two
  halves of the row separately) and everything else is one number per relation. Over the reals with `σ ≠ 0` the
  two agree, the row offset being exactly `512·c₀`. Over the extended reals the same holds when every entry is a
  real number and every spread is positive: each intermediate value is then a real number, so no infinity and no
  division by zero is met, and the logarithm is the real one.
-/
import proofs.«118852_j65051574665468_2_alg».proof.Proof.LibERealSums
import proofs.«118852_j65051574665468_2_alg».proof.Proof.LibIdealReal
import proofs.«118852_j65051574665468_2_alg».proof.Proof.Consts

noncomputable section

open Idealize.ShloMosaic

namespace Cert.GaussianScore

/-! ## The two halves of a row -/

/-- Dimension `k` of the subject half. -/
def lo (k : Fin 256) : Fin 512 := ⟨k.val, by omega⟩
/-- Dimension `k` of the object half. -/
def hi (k : Fin 256) : Fin 512 := ⟨k.val + 256, by omega⟩

/-- A sum over the 512 dimensions is the sum over the subject half plus the sum over the object half. -/
theorem sum_halves {M : Type*} [AddCommMonoid M] (f : Fin 512 → M) :
    ∑ d, f d = ∑ k, f (lo k) + ∑ k, f (hi k) := by
  rw [Cert.LibERealSums.sum_fin_blocks (m := 2) (n := 256) (by norm_num)
    (fun j k => ⟨256 * j.val + k.val, by omega⟩) (fun _ _ => rfl) f, Fin.sum_univ_two]
  refine congrArg₂ (· + ·) (Finset.sum_congr rfl fun k _ => congrArg f (Fin.ext ?_))
    (Finset.sum_congr rfl fun k _ => congrArg f (Fin.ext ?_))
  · show 256 * (0 : Fin 2).val + k.val = k.val
    simp
  · show 256 * (1 : Fin 2).val + k.val = k.val + 256
    simp
    omega

/-! ## Over the reals -/

/-- Opening the square, dimension by dimension. -/
theorem open_square (x μ σ : ℝ) (hσ : σ ≠ 0) (c : ℝ) :
    ((-1 / 2 : ℝ) * ((x - μ) / σ)) * ((x - μ) / σ) - Real.log σ - c
      = (x * x) * ((-1 / 2) * (1 / (σ * σ))) + x * (μ * (1 / (σ * σ)))
        + (-1 / 2) * ((μ * μ) * (1 / (σ * σ))) - Real.log σ - c := by
  field_simp
  ring

/-- The direct score of a row is its expanded score. -/
theorem direct_eq_expanded (x μ σ : Fin 512 → ℝ) (hσ : ∀ d, σ d ≠ 0) (c p w : ℝ) :
    (0 + ∑ d, (((-1 / 2 : ℝ) * ((x d - μ d) / σ d)) * ((x d - μ d) / σ d) - Real.log (σ d) - c)) + p * w
      = ((∑ k, (x (lo k) * x (lo k)) * ((-1 / 2) * (1 / (σ (lo k) * σ (lo k))))
            + ∑ k, (x (hi k) * x (hi k)) * ((-1 / 2) * (1 / (σ (hi k) * σ (hi k)))))
          + (∑ k, x (lo k) * (μ (lo k) * (1 / (σ (lo k) * σ (lo k))))
            + ∑ k, x (hi k) * (μ (hi k) * (1 / (σ (hi k) * σ (hi k))))))
        + (((-1 / 2) * (0 + ∑ d, (μ d * μ d) * (1 / (σ d * σ d))) - (0 + ∑ d, Real.log (σ d)) - 512 * c)
            + p * w) := by
  rw [← sum_halves (fun d => (x d * x d) * ((-1 / 2) * (1 / (σ d * σ d)))),
    ← sum_halves (fun d => x d * (μ d * (1 / (σ d * σ d))))]
  simp only [fun d => open_square (x d) (μ d) (σ d) (hσ d) c, Finset.sum_add_distrib, Finset.sum_sub_distrib,
    ← Finset.mul_sum, Finset.sum_const, Finset.card_univ, Fintype.card_fin, nsmul_eq_mul]
  push_cast
  ring

/-! ## Over the extended reals, at real entries -/

/-- The logarithm of a positive real. -/
theorem log_coe_pos {r : ℝ} (h : 0 < r) : Ideal.log (r : EReal) = ((Real.log r : ℝ) : EReal) := by
  rw [Ideal.log_coe, if_neg (not_le.mpr h)]

/-- The reciprocal variance `1/σ²`. -/
def invVar (y : EReal) : EReal := Ideal.div (Ideal.ofBits .f32 0x3F800000#32) (y * y)

theorem invVar_coe {σ : ℝ} (h : 0 < σ) : invVar (σ : EReal) = ((1 / (σ * σ) : ℝ) : EReal) := by
  unfold invVar
  rw [ofBits_one, ← EReal.coe_mul, Cert.IdealReal.div_coe_coe (mul_pos h h).ne']

/-- One dimension's term of the direct score. -/
def directTerm (x μ σ : EReal) : EReal :=
  ((Ideal.ofBits .f32 0xBF000000#32 * Ideal.div (x - μ) σ) * Ideal.div (x - μ) σ - Ideal.log σ)
    - Ideal.ofBits .f32 0x3F6B3F8E#32

theorem directTerm_coe (x μ : ℝ) {σ : ℝ} (h : 0 < σ) :
    directTerm (x : EReal) (μ : EReal) (σ : EReal)
      = ((((-1 / 2 : ℝ) * ((x - μ) / σ)) * ((x - μ) / σ) - Real.log σ - c₀ : ℝ) : EReal) := by
  unfold directTerm
  rw [ofBits_negHalf, ofBits_c₀, ← EReal.coe_sub, Cert.IdealReal.div_coe_coe h.ne', log_coe_pos h]
  norm_cast

/-- The direct score of a row: the terms summed from zero, then the prior 512 times. -/
def directRow (x μ σ : Fin 512 → EReal) (p : EReal) : EReal :=
  (Ideal.ofBits .f32 0x00000000#32 + ∑ d, directTerm (x d) (μ d) (σ d)) + p * Ideal.ofBits .f32 0x44000000#32

/-- The per-relation number of the expanded score. -/
def relationOffset (μ σ : Fin 512 → EReal) (p : EReal) : EReal :=
  (((Ideal.ofBits .f32 0xBF000000#32 * (Ideal.ofBits .f32 0x00000000#32 + ∑ d, (μ d * μ d) * invVar (σ d)))
      - (Ideal.ofBits .f32 0x00000000#32 + ∑ d, Ideal.log (σ d))) - Ideal.ofBits .f32 0x43EB3F8E#32)
    + p * Ideal.ofBits .f32 0x44000000#32

/-- The expanded score of a row given as its two halves. -/
def expandedRow (xs xo : Fin 256 → EReal) (μ σ : Fin 512 → EReal) (p : EReal) : EReal :=
  ((∑ k, (xs k * xs k) * (Ideal.ofBits .f32 0xBF000000#32 * invVar (σ (lo k)))
      + ∑ k, (xo k * xo k) * (Ideal.ofBits .f32 0xBF000000#32 * invVar (σ (hi k))))
    + (∑ k, xs k * (μ (lo k) * invVar (σ (lo k))) + ∑ k, xo k * (μ (hi k) * invVar (σ (hi k)))))
  + relationOffset μ σ p

/-- The row made of a subject half and an object half. -/
def joinHalves (xs xo : Fin 256 → EReal) (d : Fin 512) : EReal :=
  if h : d.val < 256 then xs ⟨d.val, h⟩ else xo ⟨d.val - 256, by omega⟩

/-- AT REAL ENTRIES AND POSITIVE SPREADS the expanded score of a row is its direct score. -/
theorem expandedRow_eq_directRow (xs xo : Fin 256 → EReal) (μ σ : Fin 512 → EReal) (p : EReal)
    (hxs : ∀ k, ∃ r : ℝ, xs k = (r : EReal)) (hxo : ∀ k, ∃ r : ℝ, xo k = (r : EReal))
    (hμ : ∀ d, ∃ r : ℝ, μ d = (r : EReal)) (hσ : ∀ d, ∃ r : ℝ, 0 < r ∧ σ d = (r : EReal))
    (hp : ∃ r : ℝ, p = (r : EReal)) :
    expandedRow xs xo μ σ p = directRow (joinHalves xs xo) μ σ p := by
  choose fs hfs using hxs
  choose fo hfo using hxo
  choose fμ hfμ using hμ
  choose fσ hσpos hfσ using hσ
  obtain ⟨fp, rfl⟩ := hp
  obtain rfl : xs = fun k => (fs k : EReal) := funext hfs
  obtain rfl : xo = fun k => (fo k : EReal) := funext hfo
  obtain rfl : μ = fun d => (fμ d : EReal) := funext hfμ
  obtain rfl : σ = fun d => (fσ d : EReal) := funext hfσ
  -- the whole row as reals
  let X : Fin 512 → ℝ := fun d => if h : d.val < 256 then fs ⟨d.val, h⟩ else fo ⟨d.val - 256, by omega⟩
  have hX : ∀ d, joinHalves (fun k => (fs k : EReal)) (fun k => (fo k : EReal)) d = ((X d : ℝ) : EReal) := by
    intro d
    unfold joinHalves
    show _ = (((if h : d.val < 256 then fs ⟨d.val, h⟩ else fo ⟨d.val - 256, by omega⟩) : ℝ) : EReal)
    split <;> rfl
  have hlo : ∀ k, fs k = X (lo k) := fun k => by
    show fs k = if h : (lo k).val < 256 then fs ⟨(lo k).val, h⟩ else fo ⟨(lo k).val - 256, by omega⟩
    rw [dif_pos (show (lo k).val < 256 from k.isLt)]
    rfl
  have hhi : ∀ k, fo k = X (hi k) := fun k => by
    show fo k = if h : (hi k).val < 256 then fs ⟨(hi k).val, h⟩ else fo ⟨(hi k).val - 256, by omega⟩
    rw [dif_neg (show ¬ (hi k).val < 256 from by show ¬ (k.val + 256 < 256); omega)]
    exact congrArg fo (Fin.ext (by show k.val = k.val + 256 - 256; omega))
  -- the direct score is a real
  have hdirect : directRow (joinHalves (fun k => (fs k : EReal)) (fun k => (fo k : EReal))) (fun d => (fμ d : EReal))
      (fun d => (fσ d : EReal)) (fp : EReal)
      = (((0 + ∑ d, (((-1 / 2 : ℝ) * ((X d - fμ d) / fσ d)) * ((X d - fμ d) / fσ d) - Real.log (fσ d) - c₀))
          + fp * 512 : ℝ) : EReal) := by
    unfold directRow
    rw [Cert.LibERealSums.sum_eq_coe _ _ _ (fun d _ => by rw [hX d]; exact directTerm_coe (X d) (fμ d) (hσpos d)),
      Ideal.ofBits_zero_f32, ofBits_512]
    norm_cast
  -- the expanded score is a real
  have hexp : expandedRow (fun k => (fs k : EReal)) (fun k => (fo k : EReal)) (fun d => (fμ d : EReal))
      (fun d => (fσ d : EReal)) (fp : EReal)
      = ((((∑ k, (X (lo k) * X (lo k)) * ((-1 / 2) * (1 / (fσ (lo k) * fσ (lo k))))
            + ∑ k, (X (hi k) * X (hi k)) * ((-1 / 2) * (1 / (fσ (hi k) * fσ (hi k)))))
          + (∑ k, X (lo k) * (fμ (lo k) * (1 / (fσ (lo k) * fσ (lo k))))
            + ∑ k, X (hi k) * (fμ (hi k) * (1 / (fσ (hi k) * fσ (hi k))))))
        + (((-1 / 2) * (0 + ∑ d, (fμ d * fμ d) * (1 / (fσ d * fσ d))) - (0 + ∑ d, Real.log (fσ d)) - 512 * c₀)
            + fp * 512) : ℝ) : EReal) := by
    unfold expandedRow relationOffset
    rw [Cert.LibERealSums.sum_eq_coe _ (fun k => ((fs k : EReal) * (fs k : EReal)) * (Ideal.ofBits .f32 0xBF000000#32 * invVar ((fσ (lo k) : ℝ) : EReal)))
        (fun k => (X (lo k) * X (lo k)) * ((-1 / 2) * (1 / (fσ (lo k) * fσ (lo k)))))
        (fun k _ => by rw [invVar_coe (hσpos _), ofBits_negHalf, hlo k]; norm_cast),
      Cert.LibERealSums.sum_eq_coe _ (fun k => ((fo k : EReal) * (fo k : EReal)) * (Ideal.ofBits .f32 0xBF000000#32 * invVar ((fσ (hi k) : ℝ) : EReal)))
        (fun k => (X (hi k) * X (hi k)) * ((-1 / 2) * (1 / (fσ (hi k) * fσ (hi k)))))
        (fun k _ => by rw [invVar_coe (hσpos _), ofBits_negHalf, hhi k]; norm_cast),
      Cert.LibERealSums.sum_eq_coe _ (fun k => (fs k : EReal) * (((fμ (lo k) : ℝ) : EReal) * invVar ((fσ (lo k) : ℝ) : EReal)))
        (fun k => X (lo k) * (fμ (lo k) * (1 / (fσ (lo k) * fσ (lo k)))))
        (fun k _ => by rw [invVar_coe (hσpos _), hlo k]; norm_cast),
      Cert.LibERealSums.sum_eq_coe _ (fun k => (fo k : EReal) * (((fμ (hi k) : ℝ) : EReal) * invVar ((fσ (hi k) : ℝ) : EReal)))
        (fun k => X (hi k) * (fμ (hi k) * (1 / (fσ (hi k) * fσ (hi k)))))
        (fun k _ => by rw [invVar_coe (hσpos _), hhi k]; norm_cast),
      Cert.LibERealSums.sum_eq_coe _ (fun d => (((fμ d : ℝ) : EReal) * ((fμ d : ℝ) : EReal)) * invVar ((fσ d : ℝ) : EReal))
        (fun d => (fμ d * fμ d) * (1 / (fσ d * fσ d)))
        (fun d _ => by rw [invVar_coe (hσpos _)]; norm_cast),
      Cert.LibERealSums.sum_eq_coe _ (fun d => Ideal.log ((fσ d : ℝ) : EReal)) (fun d => Real.log (fσ d))
        (fun d _ => log_coe_pos (hσpos d)),
      Ideal.ofBits_zero_f32, ofBits_negHalf, ofBits_rowOffset, ofBits_512]
    norm_cast
  rw [hexp, hdirect, direct_eq_expanded X fμ fσ (fun d => (hσpos d).ne') c₀ fp 512]

end Cert.GaussianScore

end
-- ==== Proof.RelationWeights.lean ====
/-
  What is prepared per relation before the tiles are computed, read entry by entry.

  From the means `μ` and spreads `σ` (128 relations × 512 dimensions) and the priors, the program forms the
  reciprocal variances `1/σ²`, the quadratic weights `-½/σ²` and the linear weights `μ/σ²`, cuts each into its
  subject half (dimensions 0–255) and its object half (dimensions 256–511), transposes the halves to
  256 × 128 — so that entry (k, q) of a half is the weight of relation `q` at dimension `k` of that half — and
  forms the row of offsets, one number per relation: `-½·Σ μ²/σ² - Σ log σ - 512·c₀ + 512·p`, the two sums taken
  from zero along the relation's 512 dimensions.
-/
import proofs.«118852_j65051574665468_2_alg».proof.Proof.Gen.KernelIdeal
import proofs.«118852_j65051574665468_2_alg».proof.Proof.RowAlgebra
import Idealize.ShloMosaic.Lib.ValueLayout
import Idealize.ShloMosaic.Lib.Pipeline.Value

noncomputable section

open Idealize.ShloMosaic Idealize.ShloMosaic.ValueIdx

namespace Cert.GaussianScore

open Cert.KernelIdeal Cert.KernelIdeal.Facts₀

/-- A single number spread over a shape reads that number at every index. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h _ i ix0 (fun a => a.elim0)

/-- The sum from a constant along each relation's 512 dimensions. -/
theorem rowSum_apply (x : FVec Ideal S128x512 .f32) (w : BitVec 32) (r : Fin 128) :
    Host.reduceAdd x (constant (F := Ideal) S_ .f32 w) reducesTo_S128x512_S128_d1 h_S_ (ix1 r)
      = Ideal.ofBits .f32 w + ∑ d : Fin 512, x (ix2 r d) := by
  simp only [Host.reduceAdd, Ideal.hostReduceAdd_def]
  rw [Ideal.hostReduceAdd_single reducesTo_S128x512_S128_d1 (by decide)]
  refine congrArg₂ (· + ·) rfl (Finset.sum_congr rfl fun d _ => ?_)
  exact congrArg x (funext fun a => Fin.ext (by match a with | ⟨0, _⟩ => rfl | ⟨1, _⟩ => rfl))

/-! ## The reciprocal variances and the two weight arrays -/

/-- `1/σ²`, relation by relation and dimension by dimension. -/
def invVarArr (sg : FVec Ideal S128x512 .f32) : FVec Ideal S128x512 .f32 :=
  Host.divf (broadcastInDim S128x512 ![] bcast_S_S128x512 (constant (F := Ideal) S_ .f32 0x3F800000#32)) (mulf sg sg)

theorem invVarArr_apply (sg : FVec Ideal S128x512 .f32) (i : S128x512.Idx) : invVarArr sg i = invVar (sg i) := by
  show Ideal.div (broadcastInDim S128x512 ![] bcast_S_S128x512 (constant (F := Ideal) S_ .f32 0x3F800000#32) i) (sg i * sg i) = _
  rw [splat_apply]
  rfl

/-- The quadratic weights `-½/σ²`. -/
def quadArr (sg : FVec Ideal S128x512 .f32) : FVec Ideal S128x512 .f32 :=
  mulf (broadcastInDim S128x512 ![] bcast_S_S128x512 (constant (F := Ideal) S_ .f32 0xBF000000#32)) (invVarArr sg)

theorem quadArr_apply (sg : FVec Ideal S128x512 .f32) (i : S128x512.Idx) :
    quadArr sg i = Ideal.ofBits .f32 0xBF000000#32 * invVar (sg i) := by
  show broadcastInDim S128x512 ![] bcast_S_S128x512 (constant (F := Ideal) S_ .f32 0xBF000000#32) i * invVarArr sg i = _
  rw [splat_apply, invVarArr_apply]

/-- The linear weights `μ/σ²`. -/
def linArr (mu sg : FVec Ideal S128x512 .f32) : FVec Ideal S128x512 .f32 := mulf mu (invVarArr sg)

theorem linArr_apply (mu sg : FVec Ideal S128x512 .f32) (i : S128x512.Idx) : linArr mu sg i = mu i * invVar (sg i) := by
  show mu i * invVarArr sg i = _
  rw [invVarArr_apply]

/-! ## A half of a weight array, transposed -/

/-- The subject half (dimensions 0–255) of a 128 × 512 array, transposed to 256 × 128 (and stored in the narrower
    format, which changes nothing here). -/
def subjT (w : FVec Ideal S128x512 .f32) : FVec Ideal S256x128 .bf16 :=
  truncf .bf16 (transpose S256x128 [1, 0] (extractStridedSlice S128x256 ![0, 0] w slices_S128x512_S128x256_0_0)
    transposes_S128x256_S256x128_1_0) bitsLt_bf16_f32

/-- The object half (dimensions 256–511), likewise. -/
def objT (w : FVec Ideal S128x512 .f32) : FVec Ideal S256x128 .bf16 :=
  truncf .bf16 (transpose S256x128 [1, 0] (extractStridedSlice S128x256 ![0, 256] w slices_S128x512_S128x256_0_256)
    transposes_S128x256_S256x128_1_0) bitsLt_bf16_f32

theorem subjT_apply (w : FVec Ideal S128x512 .f32) (k : Fin 256) (q : Fin 128) : subjT w (ix2 k q) = w (ix2 q (lo k)) := by
  show transpose S256x128 [1, 0] (extractStridedSlice S128x256 ![0, 0] w slices_S128x512_S128x256_0_0)
    transposes_S128x256_S256x128_1_0 (ix2 k q) = _
  rw [transpose_ix2_apply]
  exact extractStridedSlice_apply _ w _ (ix2 q k) (ix2 q (lo k)) (fun a => by
    match a with
    | ⟨0, _⟩ => exact (Nat.zero_add _).symm
    | ⟨1, _⟩ => exact (Nat.zero_add _).symm)

theorem objT_apply (w : FVec Ideal S128x512 .f32) (k : Fin 256) (q : Fin 128) : objT w (ix2 k q) = w (ix2 q (hi k)) := by
  show transpose S256x128 [1, 0] (extractStridedSlice S128x256 ![0, 256] w slices_S128x512_S128x256_0_256)
    transposes_S128x256_S256x128_1_0 (ix2 k q) = _
  rw [transpose_ix2_apply]
  exact extractStridedSlice_apply _ w _ (ix2 q k) (ix2 q (hi k)) (fun a => by
    match a with
    | ⟨0, _⟩ => exact (Nat.zero_add _).symm
    | ⟨1, _⟩ => exact Nat.add_comm _ _)

/-! ## The row of offsets -/

/-- One number per relation, as a 1 × 128 row. -/
def offsetArr (mu sg : FVec Ideal S128x512 .f32) (p : FVec Ideal S128 .f32) : FVec Ideal S1x128 .f32 :=
  shapeCast S1x128
    (addf
      (subf
        (subf
          (mulf (broadcastInDim S128 ![] bcast_S_S128 (constant (F := Ideal) S_ .f32 0xBF000000#32))
            (Host.reduceAdd (mulf (mulf mu mu) (invVarArr sg)) (constant (F := Ideal) S_ .f32 0x00000000#32)
              reducesTo_S128x512_S128_d1 h_S_))
          (Host.reduceAdd (Host.log sg) (constant (F := Ideal) S_ .f32 0x00000000#32) reducesTo_S128x512_S128_d1 h_S_))
        (broadcastInDim S128 ![] bcast_S_S128 (constant (F := Ideal) S_ .f32 0x43EB3F8E#32)))
      (mulf p (broadcastInDim S128 ![] bcast_S_S128 (constant (F := Ideal) S_ .f32 0x44000000#32))))
    shapeCasts_S128_S1x128

theorem offsetArr_apply (mu sg : FVec Ideal S128x512 .f32) (p : FVec Ideal S128 .f32) (u : Fin 1) (q : Fin 128) :
    offsetArr mu sg p (ix2 u q)
      = relationOffset (fun d => mu (ix2 q d)) (fun d => sg (ix2 q d)) (p (ix1 q)) := by
  unfold offsetArr relationOffset
  rw [shapeCast_a_1a_apply]
  simp only [addf_apply, subf_apply, mulf_apply, splat_apply, rowSum_apply, invVarArr_apply]
  rfl

end Cert.GaussianScore

end
-- ==== Proof.Score.lean ====
/-
  The score arrays: entry (b, r) is the log-score of sample `b` — row `b` of the subject embeddings followed by
  row `b` of the object embeddings — against relation `r`, directly (`directScore`) or with the square opened
  (`expandedScore`). At real entries and positive spreads they are the same array.
-/
import proofs.«118852_j65051574665468_2_alg».proof.Proof.RowAlgebra

noncomputable section

open Idealize.ShloMosaic Idealize.ShloMosaic.ValueIdx

namespace Cert.GaussianScore

abbrev Embeddings : Shape := ⟨2, ![4096, 256]⟩
abbrev Relations : Shape := ⟨2, ![128, 512]⟩
abbrev Priors : Shape := ⟨1, ![128]⟩
abbrev Scores : Shape := ⟨2, ![4096, 128]⟩

/-- The direct score of every sample against every relation. -/
def directScore (s o : Embeddings.Idx → EReal) (mu sg : Relations.Idx → EReal) (p : Priors.Idx → EReal) :
    Scores.Idx → EReal := fun i =>
  directRow (joinHalves (fun k => s (ix2 (i 0) k)) (fun k => o (ix2 (i 0) k))) (fun d => mu (ix2 (i 1) d))
    (fun d => sg (ix2 (i 1) d)) (p (ix1 (i 1)))

/-- The expanded score of every sample against every relation. -/
def expandedScore (s o : Embeddings.Idx → EReal) (mu sg : Relations.Idx → EReal) (p : Priors.Idx → EReal) :
    Scores.Idx → EReal := fun i =>
  expandedRow (fun k => s (ix2 (i 0) k)) (fun k => o (ix2 (i 0) k)) (fun d => mu (ix2 (i 1) d))
    (fun d => sg (ix2 (i 1) d)) (p (ix1 (i 1)))

/-- At real entries and positive spreads the two arrays are one. -/
theorem expandedScore_eq_directScore (s o : Embeddings.Idx → EReal) (mu sg : Relations.Idx → EReal)
    (p : Priors.Idx → EReal) (hs : ∀ i, ∃ r : ℝ, s i = (r : EReal)) (ho : ∀ i, ∃ r : ℝ, o i = (r : EReal))
    (hmu : ∀ i, ∃ r : ℝ, mu i = (r : EReal)) (hsg : ∀ i, ∃ r : ℝ, 0 < r ∧ sg i = (r : EReal))
    (hp : ∀ i, ∃ r : ℝ, p i = (r : EReal)) :
    expandedScore s o mu sg p = directScore s o mu sg p :=
  funext fun i => expandedRow_eq_directRow _ _ _ _ _ (fun _ => hs _) (fun _ => ho _) (fun _ => hmu _)
    (fun _ => hsg _) (hp _)

end Cert.GaussianScore

end
-- ==== Proof.KernelScore.lean ====
/-
  The kernel's result array is the expanded score.

  The launch runs the body at 8 grid points. At point `t` the body sees rows `512·t … 512·t + 511` of the subject and
  object embeddings and, whole, the five prepared arrays (the four transposed weight halves and the offsets' row),
  and what it stores is written back to rows `512·t … 512·t + 511` of the result. Entry (p, q) of the stored tile
  depends only on row `512·t + p` of the embeddings and column `q` of the prepared arrays, so every tile is a block of
  ONE array, the tile score of the whole embeddings; the 8 blocks cover the 4096 rows; and with the prepared arrays
  read back as functions of the means, spreads and priors, the tile score is the expanded score.
-/
import proofs.«118852_j65051574665468_2_alg».proof.Proof.Gen.KernelIdeal.Value
import proofs.«118852_j65051574665468_2_alg».proof.Proof.ScoreTile
import proofs.«118852_j65051574665468_2_alg».proof.Proof.RelationWeights
import proofs.«118852_j65051574665468_2_alg».proof.Proof.Score
import Idealize.ShloMosaic.Lib.StableHlo.Run

set_option maxRecDepth 16384

noncomputable section

open Idealize.ShloMosaic Idealize.ShloMosaic.ValueIdx Idealize.ShloMosaic.TcCoe Idealize.SL.Sem
open Idealize.ShloMosaic.StableHlo
open Idealize.ShloMosaic.Pipeline (Dat)

namespace Cert.GaussianScore

open Cert.KernelIdeal Cert.KernelIdeal.Gen

/-! ## The tile score -/

/-- The score array as the tiles compute it from the embeddings and the five prepared arrays. -/
def tileScore (s o : FVec Ideal S4096x256 .f32) (w1s w1o w2s w2o : FVec Ideal S256x128 .bf16)
    (off : FVec Ideal S1x128 .f32) : S4096x128.Idx → EReal := fun i =>
  ((∑ k : Fin 256, (s (ix2 (i 0) k) * s (ix2 (i 0) k)) * w1s (ix2 k (i 1))
      + ∑ k : Fin 256, (o (ix2 (i 0) k) * o (ix2 (i 0) k)) * w1o (ix2 k (i 1)))
    + (∑ k : Fin 256, s (ix2 (i 0) k) * w2s (ix2 k (i 1)) + ∑ k : Fin 256, o (ix2 (i 0) k) * w2o (ix2 k (i 1))))
  + off (ix2 (0 : Fin 1) (i 1))

/-- The tile score at sample `b` and relation `r`. -/
theorem tileScore_ix2 (s o : FVec Ideal S4096x256 .f32) (w1s w1o w2s w2o : FVec Ideal S256x128 .bf16)
    (off : FVec Ideal S1x128 .f32) (b : Fin 4096) (r : Fin 128) :
    tileScore s o w1s w1o w2s w2o off (ix2 b r)
      = ((∑ k : Fin 256, (s (ix2 b k) * s (ix2 b k)) * w1s (ix2 k r)
            + ∑ k : Fin 256, (o (ix2 b k) * o (ix2 b k)) * w1o (ix2 k r))
          + (∑ k : Fin 256, s (ix2 b k) * w2s (ix2 k r) + ∑ k : Fin 256, o (ix2 b k) * w2o (ix2 k r)))
        + off (ix2 (0 : Fin 1) r) := rfl

/-- The expanded score at sample `b` and relation `r`. -/
theorem expandedScore_ix2 (s o : FVec Ideal S4096x256 .f32) (mu sg : FVec Ideal S128x512 .f32) (p : FVec Ideal S128 .f32)
    (b : Fin 4096) (r : Fin 128) :
    expandedScore s o mu sg p (ix2 b r)
      = expandedRow (fun k => s (ix2 b k)) (fun k => o (ix2 b k)) (fun d => mu (ix2 r d)) (fun d => sg (ix2 r d))
          (p (ix1 r)) := rfl

/-- With the arrays prepared from the means, spreads and priors it is the expanded score. -/
theorem tileScore_prepared (s o : FVec Ideal S4096x256 .f32) (mu sg : FVec Ideal S128x512 .f32) (p : FVec Ideal S128 .f32) :
    tileScore s o (subjT (quadArr sg)) (objT (quadArr sg)) (subjT (linArr mu sg)) (objT (linArr mu sg)) (offsetArr mu sg p)
      = expandedScore s o mu sg p := by
  funext i
  obtain ⟨b, r, rfl⟩ : ∃ (b : Fin 4096) (r : Fin 128), i = ix2 b r := ⟨i 0, i 1, eq_ix2 i⟩
  rw [tileScore_ix2, expandedScore_ix2]
  unfold expandedRow
  simp only [subjT_apply, objT_apply, quadArr_apply, linArr_apply, offsetArr_apply]

/-- The tile stored from a block of 512 rows starting at row `512·T` is that block of the tile score. -/
theorem tile_of_blocks (S O : FVec Ideal S4096x256 .f32) (W1s W1o W2s W2o : FVec Ideal S256x128 .bf16)
    (Off : FVec Ideal S1x128 .f32) (xs xo : Vec Ideal S512x256 .f32) (w1s w1o w2s w2o : Vec Ideal S256x128 .bf16)
    (off : Vec Ideal S1x128 .f32) (T : Nat) (hT : T < 8)
    (hxs : ∀ (p : Fin 512) (k : Fin 256), xs (ix2 p k) = S (ix2 ⟨T * 512 + p.val, by have := p.isLt; omega⟩ k))
    (hxo : ∀ (p : Fin 512) (k : Fin 256), xo (ix2 p k) = O (ix2 ⟨T * 512 + p.val, by have := p.isLt; omega⟩ k))
    (h1s : w1s = W1s) (h1o : w1o = W1o) (h2s : w2s = W2s) (h2o : w2o = W2o) (hoff : off = Off)
    (y : S512x128.Idx) (i : S4096x128.Idx) (hi0 : (i 0).val = T * 512 + (y 0).val) (hi1 : (i 1).val = (y 1).val) :
    k0_pay1 (F := Ideal) xs xo w1s w1o w2s w2o off y = tileScore S O W1s W1o W2s W2o Off i := by
  subst h1s h1o h2s h2o hoff
  obtain ⟨p, q, rfl⟩ : ∃ (p : Fin 512) (q : Fin 128), y = ix2 p q := ⟨y 0, y 1, eq_ix2 y⟩
  have hb : T * 512 + p.val < 4096 := by have := p.isLt; omega
  have hi : i = ix2 (⟨T * 512 + p.val, hb⟩ : Fin 4096) q := by
    funext a
    apply Fin.ext
    match a with
    | ⟨0, _⟩ => exact hi0
    | ⟨1, _⟩ => exact hi1
  rw [hi, tile_apply, tileScore_ix2]
  simp only [hxs, hxo]

variable (m : (ℓ : Loc nD τ sig) → Buf (Elt Ideal) ℓ) (ρ : Dev nD → PrngReg)

/-! ## The prepared arrays as the launch finds them -/

theorem quadSubj_found (c : Dev nD) :
    (V m c main_v11 : S256x128.Idx → EReal) = subjT (quadArr (m ((c : Thread nD τ).loc main_arg3))) := by
  dsimp only [V, hostOps0]; after_results; rfl

theorem quadObj_found (c : Dev nD) :
    (V m c main_v13 : S256x128.Idx → EReal) = objT (quadArr (m ((c : Thread nD τ).loc main_arg3))) := by
  dsimp only [V, hostOps0]; after_results; rfl

theorem linSubj_found (c : Dev nD) :
    (V m c main_v15 : S256x128.Idx → EReal)
      = subjT (linArr (m ((c : Thread nD τ).loc main_arg2)) (m ((c : Thread nD τ).loc main_arg3))) := by
  dsimp only [V, hostOps0]; after_results; rfl

theorem linObj_found (c : Dev nD) :
    (V m c main_v17 : S256x128.Idx → EReal)
      = objT (linArr (m ((c : Thread nD τ).loc main_arg2)) (m ((c : Thread nD τ).loc main_arg3))) := by
  dsimp only [V, hostOps0]; after_results; rfl

set_option maxHeartbeats 1600000 in
theorem offsets_found (c : Dev nD) :
    (V m c main_v31 : S1x128.Idx → EReal)
      = offsetArr (m ((c : Thread nD τ).loc main_arg2)) (m ((c : Thread nD τ).loc main_arg3))
          (m ((c : Thread nD τ).loc main_arg4)) := by
  dsimp only [V, hostOps0]; after_results; rfl

/-! ## From the blocks to the array -/

theorem zero_offsets : (![0, 0] : Fin 2 → Nat) = fun _ => 0 := funext fun a => by fin_cases a <;> rfl

/-- Where each operand's block sits at grid point `t`: the embeddings' and the result's at block row `t`, the
    prepared arrays' always at their one block. -/
theorem block_places : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The rows of the subject embeddings that point `t` sees are rows `512·t …` of the array. -/
theorem subject_block (c : Dev nD) (t : Fin cfg0.N) (ht : t.val < 8) (p : Fin 512) (k : Fin 256) :
    iblk m c 0 t (ix2 p k) = V m c main_arg0 (ix2 ⟨t.val * 512 + p.val, by have := p.isLt; omega⟩ k) := by
  obtain ⟨⟨a00, a01⟩, -⟩ := block_places t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = t.val * 512 + p.val; rw [a00]; omega
  | ⟨1, _⟩ => show win0_0.index t (1 : Fin 2) * 256 + 1 * k.val = k.val; rw [a01]; omega

/-- Likewise for the object embeddings. -/
theorem object_block (c : Dev nD) (t : Fin cfg0.N) (ht : t.val < 8) (p : Fin 512) (k : Fin 256) :
    iblk m c 1 t (ix2 p k) = V m c main_arg1 (ix2 ⟨t.val * 512 + p.val, by have := p.isLt; omega⟩ k) := by
  obtain ⟨-, ⟨a10, a11⟩, -⟩ := block_places t
  show V m c main_arg1 (((cfg0.win 1).blk t).view.emb (ix2 p k)) = _
  refine congrArg (V m c main_arg1) (funext fun a => Fin.ext ?_)
  match a with
  | ⟨0, _⟩ => show win0_1.index t (0 : Fin 2) * 512 + 1 * p.val = t.val * 512 + p.val; rw [a10]; omega
  | ⟨1, _⟩ => show win0_1.index t (1 : Fin 2) * 256 + 1 * k.val = k.val; rw [a11]; omega

/-- Each prepared array is seen whole at every point. -/
theorem quadSubj_block (c : Dev nD) (t : Fin cfg0.N) : iblk m c 2 t = V m c main_v11 := by
  obtain ⟨-, -, ⟨a0, a1⟩, -⟩ := block_places t
  funext z
  show V m c main_v11 (((cfg0.win 2).blk t).view.emb z) = V m c main_v11 z
  refine congrArg (V m c main_v11) (funext fun a => Fin.ext ?_)
  match a with
  | ⟨0, _⟩ => show win0_2.index t (0 : Fin 2) * 256 + 1 * (z 0).val = (z 0).val; rw [a0]; omega
  | ⟨1, _⟩ => show win0_2.index t (1 : Fin 2) * 128 + 1 * (z 1).val = (z 1).val; rw [a1]; omega

theorem quadObj_block (c : Dev nD) (t : Fin cfg0.N) : iblk m c 3 t = V m c main_v13 := by
  obtain ⟨-, -, -, ⟨a0, a1⟩, -⟩ := block_places t
  funext z
  show V m c main_v13 (((cfg0.win 3).blk t).view.emb z) = V m c main_v13 z
  refine congrArg (V m c main_v13) (funext fun a => Fin.ext ?_)
  match a with
  | ⟨0, _⟩ => show win0_3.index t (0 : Fin 2) * 256 + 1 * (z 0).val = (z 0).val; rw [a0]; omega
  | ⟨1, _⟩ => show win0_3.index t (1 : Fin 2) * 128 + 1 * (z 1).val = (z 1).val; rw [a1]; omega

theorem linSubj_block (c : Dev nD) (t : Fin cfg0.N) : iblk m c 4 t = V m c main_v15 := by
  obtain ⟨-, -, -, -, ⟨a0, a1⟩, -⟩ := block_places t
  funext z
  show V m c main_v15 (((cfg0.win 4).blk t).view.emb z) = V m c main_v15 z
  refine congrArg (V m c main_v15) (funext fun a => Fin.ext ?_)
  match a with
  | ⟨0, _⟩ => show win0_4.index t (0 : Fin 2) * 256 + 1 * (z 0).val = (z 0).val; rw [a0]; omega
  | ⟨1, _⟩ => show win0_4.index t (1 : Fin 2) * 128 + 1 * (z 1).val = (z 1).val; rw [a1]; omega

theorem linObj_block (c : Dev nD) (t : Fin cfg0.N) : iblk m c 5 t = V m c main_v17 := by
  obtain ⟨-, -, -, -, -, ⟨a0, a1⟩, -⟩ := block_places t
  funext z
  show V m c main_v17 (((cfg0.win 5).blk t).view.emb z) = V m c main_v17 z
  refine congrArg (V m c main_v17) (funext fun a => Fin.ext ?_)
  match a with
  | ⟨0, _⟩ => show win0_5.index t (0 : Fin 2) * 256 + 1 * (z 0).val = (z 0).val; rw [a0]; omega
  | ⟨1, _⟩ => show win0_5.index t (1 : Fin 2) * 128 + 1 * (z 1).val = (z 1).val; rw [a1]; omega

theorem offsets_block (c : Dev nD) (t : Fin cfg0.N) : iblk m c 6 t = V m c main_v31 := by
  obtain ⟨-, -, -, -, -, -, ⟨a0, a1⟩, -⟩ := block_places t
  funext z
  show V m c main_v31 (((cfg0.win 6).blk t).view.emb z) = V m c main_v31 z
  refine congrArg (V m c main_v31) (funext fun a => Fin.ext ?_)
  match a with
  | ⟨0, _⟩ => show win0_6.index t (0 : Fin 2) * 1 + 1 * (z 0).val = (z 0).val; rw [a0]; omega
  | ⟨1, _⟩ => show win0_6.index t (1 : Fin 2) * 128 + 1 * (z 1).val = (z 1).val; rw [a1]; omega

set_option maxHeartbeats 800000 in
/-- What grid point `t` writes back is block `t` of the tile score of the arrays as the launch finds them. -/
theorem flushed_eq (c : Dev nD) (t : Fin cfg0.N) :
    (dats m 0 c).flushed 7 t = ((cfg0.win 7).blk t).view.read (Elt Ideal)
      (tileScore (V m c main_arg0) (V m c main_arg1) (V m c main_v11) (V m c main_v13) (V m c main_v15)
        (V m c main_v17) (V m c main_v31)) := by
  rw [Cert.KernelIdeal.Value.flushed7]
  unfold out0_7
  rw [View.canon_unit_zero zero_offsets]
  simp only [View.ld_unit_zero (S := S512x256) zero_offsets, View.ld_unit_zero (S := S256x128) zero_offsets,
    View.ld_unit_zero (S := S1x128) zero_offsets]
  obtain ⟨-, -, -, -, -, -, -, ⟨a70, a71⟩⟩ := block_places t
  have ht : t.val < 8 := lt_of_lt_of_eq t.isLt N_0
  funext y
  refine tile_of_blocks (V m c main_arg0) (V m c main_arg1) (V m c main_v11) (V m c main_v13) (V m c main_v15)
    (V m c main_v17) (V m c main_v31) (iblk m c 0 t) (iblk m c 1 t) (iblk m c 2 t) (iblk m c 3 t) (iblk m c 4 t)
    (iblk m c 5 t) (iblk m c 6 t) t.val ht (subject_block m c t ht) (object_block m c t ht) (quadSubj_block m c t)
    (quadObj_block m c t) (linSubj_block m c t) (linObj_block m c t) (offsets_block m c t) y
    (((cfg0.win 7).blk t).view.emb y) ?_ ?_
  · show win0_7.index t (0 : Fin 2) * 512 + 1 * (y 0).val = t.val * 512 + (y 0).val
    rw [a70]; omega
  · show win0_7.index t (1 : Fin 2) * 128 + 1 * (y 1).val = (y 1).val
    rw [a71]; omega

/-- An index of the result is in point `t`'s block iff each coordinate is in the block's range on its axis. -/
theorem mem_block (t : Fin cfg0.N) (i : S4096x128.Idx) :
    i ∈ ((cfg0.win 7).blk t).view.set ↔ ∀ a : Fin 2, win0_7.index t a * S512x128.size a ≤ (i a).val
      ∧ (i a).val < win0_7.index t a * S512x128.size a + S512x128.size a := by
  show i ∈ ((View.whole main_v32).slice (win0_7.rect t)).set ↔ _
  rw [View.set_slice_whole, Rect.mem_set_unit]
  exact Iff.rfl

/-- Every row of the result is in the block of the point `row / 512`. -/
theorem covered (i : S4096x128.Idx) :
    ∃ t : Fin cfg0.N, (cfg0.win 7).flush t = true ∧ i ∈ ((cfg0.win 7).blk t).view.set := by
  have hi0 : (i 0).val < 4096 := (i 0).isLt
  have hi1 : (i 1).val < 128 := (i 1).isLt
  have hlt : (i 0).val / 512 < cfg0.N := by rw [show cfg0.N = 8 from N_0]; omega
  obtain ⟨-, -, -, -, -, -, -, ⟨a70, a71⟩⟩ := block_places ⟨(i 0).val / 512, hlt⟩
  refine ⟨⟨(i 0).val / 512, hlt⟩, flush0_7 _, ?_⟩
  rw [mem_block]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    rw [a70]
    show (i 0).val / 512 * 512 ≤ (i 0).val ∧ (i 0).val < (i 0).val / 512 * 512 + 512
    omega
  | ⟨1, _⟩ =>
    show win0_7.index ⟨(i 0).val / 512, hlt⟩ (1 : Fin 2) * 128 ≤ (i 1).val
      ∧ (i 1).val < win0_7.index ⟨(i 0).val / 512, hlt⟩ (1 : Fin 2) * 128 + 128
    rw [a71]
    omega

/-- The result array after the run is the expanded score of the argument arrays. -/
theorem result_eq (c : Dev nD) :
    (dats m 0 c).arrAt 7 cfg0.N
      = expandedScore (m ((c : Thread nD τ).loc main_arg0)) (m ((c : Thread nD τ).loc main_arg1))
          (m ((c : Thread nD τ).loc main_arg2)) (m ((c : Thread nD τ).loc main_arg3))
          (m ((c : Thread nD τ).loc main_arg4)) := by
  rw [(dats m 0 c).arrAt_eq_of_cover 7 _ (fun t _ => flushed_eq m c t) covered, V_main_arg0, V_main_arg1,
    quadSubj_found, quadObj_found, linSubj_found, linObj_found, offsets_found, tileScore_prepared]

/-- The kernel's run with its result named: the expanded score of the arguments, which end unchanged. -/
theorem run : θ_run defs (onTc (τ := τ) (main (F := Ideal))) ⟨m, fun _ => 0, ρ⟩ fun r => ∀ c : Dev nD,
      r.2.mem ((c : Thread nD τ).loc main_v32)
        = expandedScore (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.GaussianScore

end
-- ==== Proof.ReferenceScore.lean ====
/-
  The reference program computes the direct score.

  It joins the subject and object embeddings along the dimension axis, spreads samples, means and spreads over the
  4096 × 128 × 512 box, forms `-½·z·z - log σ - c₀` with `z = (x - μ)/σ` entry by entry, sums the 512 dimensions
  from zero and adds the prior times 512. Read at (b, r): every spread array is read back at (b, d), (r, d) or r, and
  the joined row at dimension `d` is the subject's entry for `d < 256` and the object's entry `d - 256` otherwise.
-/
import proofs.«118852_j65051574665468_2_alg».proof.Proof.Gen.ReferenceIdeal.Read
import proofs.«118852_j65051574665468_2_alg».proof.Proof.Score

noncomputable section

open Idealize.ShloMosaic Idealize.ShloMosaic.ValueIdx

namespace Cert.GaussianScore

open Cert.ReferenceIdeal Cert.ReferenceIdeal.Facts₀ Cert.ReferenceIdeal.Read

/-- The joined embeddings at (b, d). -/
theorem joined_apply (x0 x1 : FVec Ideal S4096x256 .f32) (b : Fin 4096) (d : Fin 512) :
    val_main_v0 (F := Ideal) x0 x1 (ix2 b d) = joinHalves (fun k => x0 (ix2 b k)) (fun k => x1 (ix2 b k)) d := by
  unfold val_main_v0 joinHalves
  by_cases h : d.val < 256
  · rw [dif_pos h]
    exact concatenate_pair_apply_left (1 : Fin 2) x0 x1 concatenates_S4096x256_S4096x256_S4096x512_d1 (ix2 b d) rfl
      (ix2 b ⟨d.val, h⟩) (fun a => by match a with | ⟨0, _⟩ => rfl | ⟨1, _⟩ => rfl)
  · rw [dif_neg h]
    exact concatenate_pair_apply_right (1 : Fin 2) x0 x1 concatenates_S4096x256_S4096x256_S4096x512_d1 (ix2 b d) rfl rfl
      (ix2 b ⟨d.val - 256, by omega⟩)
      (fun a hne => by match a with | ⟨0, _⟩ => rfl | ⟨1, _⟩ => exact absurd rfl hne)
      (by show (d.val - 256) + 256 = d.val; omega)

/-- The reference's result array is the direct score of its arguments. -/
theorem reference_eq_directScore (x0 x1 : FVec Ideal S4096x256 .f32) (x2 x3 : FVec Ideal S128x512 .f32)
    (x4 : FVec Ideal S128 .f32) :
    val_main_v23 (F := Ideal) x0 x1 x2 x3 x4 = directScore x0 x1 x2 x3 x4 := by
  funext i
  obtain ⟨b, r, rfl⟩ : ∃ (b : Fin 4096) (r : Fin 128), i = ix2 b r := ⟨i 0, i 1, eq_ix2 i⟩
  have e0 : ∀ k : Fin 512, idx_main_v1 (idx_main_v3 (idx_main_v18 (ix2 b r) k)) = ix2 b k := fun k =>
    funext fun a => Fin.ext (by match a with | ⟨0, _⟩ => rfl | ⟨1, _⟩ => rfl)
  have e2 : ∀ k : Fin 512, idx_main_v2 (idx_main_v4 (idx_main_v18 (ix2 b r) k)) = ix2 r k := fun k =>
    funext fun a => Fin.ext (by match a with | ⟨0, _⟩ => rfl | ⟨1, _⟩ => rfl)
  have e3 : ∀ k : Fin 512, idx_main_v6 (idx_main_v7 (idx_main_v18 (ix2 b r) k)) = ix2 r k := fun k =>
    funext fun a => Fin.ext (by match a with | ⟨0, _⟩ => rfl | ⟨1, _⟩ => rfl)
  have e12 : ∀ k : Fin 512, idx_main_v13 (idx_main_v14 (idx_main_v18 (ix2 b r) k)) = ix2 r k := fun k =>
    funext fun a => Fin.ext (by match a with | ⟨0, _⟩ => rfl | ⟨1, _⟩ => rfl)
  have e4 : idx_main_v19 (idx_main_v22 (ix2 b r)) = ix1 r :=
    funext fun a => Fin.ext (by match a with | ⟨0, _⟩ => rfl)
  rw [val_main_v23_apply, val_main_v18_apply, val_main_v22_apply, val_main_v21_apply, val_main_v19_apply,
    val_main_v20_apply, val_main_cst_2_apply, val_main_cst_1_apply]
  simp only [val_main_v17_apply, val_main_v15_apply, val_main_v16_apply, val_main_cst_0_apply, val_main_v11_apply,
    val_main_v10_apply, val_main_v9_apply, val_main_cst_apply, val_main_v8_apply, val_main_v5_apply, val_main_v3_apply,
    val_main_v1_apply, val_main_v4_apply, val_main_v2_apply, val_main_v7_apply, val_main_v6_apply, val_main_v14_apply,
    val_main_v13_apply, val_main_v12_apply, e0, e2, e3, e12, e4, joined_apply]
  rfl

end Cert.GaussianScore

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.PreDecode.lean ====
/-
  What the precondition says of the five argument arrays: every entry is a real number — its absolute value is
  below +∞ — and every spread is positive, so that its logarithm and the division by it are the real ones.
-/
import proofs.«118852_j65051574665468_2_alg».proof.Proof.Gen.Pre_finite_inputs
import proofs.«118852_j65051574665468_2_alg».proof.Proof.LibFiniteAll
import Idealize.ShloMosaic.Lib.Affine

noncomputable section

open Idealize.ShloMosaic Idealize.ShloMosaic.ValueIdx

namespace Cert.GaussianScore

open Cert.Pre_finite_inputs Cert.Pre_finite_inputs.Facts Cert.FiniteAll

/-- The element test of positivity: the comparison bit of `x > 0` is 1 only at a positive `x`. -/
theorem pos_of_cmp (x : EReal)
    (h : FloatOps.cmpf (F := Ideal) (φ := .f32) .ogt x (FloatOps.ofBits (F := Ideal) .f32 0x00000000#32) = 1#1) :
    0 < x := by
  have h' : Ideal.cmp .ogt x (Ideal.ofBits .f32 0x00000000#32) = 1#1 := h
  rw [Ideal.ofBits_zero_f32] at h'
  unfold Ideal.cmp at h'
  rw [ofBool_eq_one] at h'
  exact of_decide_eq_true h'

/-- Under the precondition the embeddings, the means and the priors are arrays of reals and the spreads an array of
    positive reals. -/
theorem inputs_of_pre (a0 a1 : FVec Ideal S4096x256 .f32) (a2 a3 : FVec Ideal S128x512 .f32) (a4 : FVec Ideal S128 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, 0 < r ∧ a3 i = (r : EReal)) ∧ (∀ i, ∃ r : ℝ, a4 i = (r : EReal)) := by
  have h0 := congrFun h ix0
  dsimp only [fn, fn_part1] at h0
  obtain ⟨h01234, h5⟩ := IntOp.andi_eq_one.mp h0
  obtain ⟨h0123, h4⟩ := IntOp.andi_eq_one.mp h01234
  obtain ⟨h012, h3⟩ := IntOp.andi_eq_one.mp h0123
  obtain ⟨h01, h2⟩ := IntOp.andi_eq_one.mp h012
  obtain ⟨h0', h1⟩ := IntOp.andi_eq_one.mp h01
  have r3 := all_real a3 _ _ _ ix0 h3
  have pos3 : ∀ i, 0 < a3 i := fun i => pos_of_cmp (a3 i) (Host.reduce_andi_all _ _ _ _ ix0 h5 i)
  refine ⟨all_real a0 _ _ _ ix0 h0', all_real a1 _ _ _ ix0 h1, all_real a2 _ _ _ ix0 h2, fun i => ?_,
    all_real a4 _ _ _ ix0 h4⟩
  obtain ⟨r, hr⟩ := r3 i
  refine ⟨r, ?_, hr⟩
  have hp := pos3 i
  rw [hr] at hp
  exact_mod_cast hp

end Cert.GaussianScore

end
-- ==== Proof.lean ====
/-
  A Gaussian log-score of 4096 samples against 128 relations, computed two ways.

  A sample is a subject embedding followed by an object embedding (256 numbers each); a relation has a mean and a
  spread per dimension and a prior. The reference adds `-½·((x - μ)/σ)² - log σ - c₀` over the 512 dimensions and
  then 512 times the prior. The kernel opens the square: from the means, spreads and priors it prepares the weights
  `-½/σ²` and `μ/σ²` (each cut into its subject and object halves and transposed) and one offset per relation,
  `-½·Σ μ²/σ² - Σ log σ - 512·c₀ + 512·p`, and then, tile by tile of 512 samples, adds four matrix products — the
  squared and the plain embeddings against the two kinds of weights — and the offset.

  Over the extended reals the two agree wherever every argument entry is a real number and every spread is positive:
  all intermediate values are then real, `(x - μ)²/σ² = x²/σ² - 2xμ/σ² + μ²/σ²` holds, a sum of 512 terms splits into
  its parts, and the kernel's row offset is exactly 512 times the reference's per-dimension offset. The precondition
  states both conditions; at a zero spread the two programs do differ (the reference meets `0/0`), which is why the
  spreads' positivity is part of it.

  Each of the three programs runs to completion and leaves its argument arrays as they were. The idealized kernel
  is the kernel's own text read over the extended reals: none of its operations was replaced by another.
-/
import proofs.«118852_j65051574665468_2_alg».proof.Defs
import proofs.«118852_j65051574665468_2_alg».proof.Proof.Gen.Kernel
import proofs.«118852_j65051574665468_2_alg».proof.Proof.Gen.Kernel.Skeleton
import proofs.«118852_j65051574665468_2_alg».proof.Proof.Gen.Kernel.Launch
import proofs.«118852_j65051574665468_2_alg».proof.Proof.Gen.Kernel.Points
import proofs.«118852_j65051574665468_2_alg».proof.Proof.Gen.Kernel.Frame
import proofs.«118852_j65051574665468_2_alg».proof.Proof.Gen.KernelIdeal
import proofs.«118852_j65051574665468_2_alg».proof.Proof.Gen.KernelIdeal.Skeleton
import proofs.«118852_j65051574665468_2_alg».proof.Proof.Gen.KernelIdeal.Launch
import proofs.«118852_j65051574665468_2_alg».proof.Proof.Gen.KernelIdeal.Points
import proofs.«118852_j65051574665468_2_alg».proof.Proof.Gen.KernelIdeal.Frame
import proofs.«118852_j65051574665468_2_alg».proof.Proof.Gen.ReferenceIdeal
import proofs.«118852_j65051574665468_2_alg».proof.Proof.Gen.Pre_finite_inputs
import proofs.«118852_j65051574665468_2_alg».proof.Proof.Gen.KernelIdeal.Value
import proofs.«118852_j65051574665468_2_alg».proof.Proof.Gen.ReferenceIdeal.Run
import proofs.«118852_j65051574665468_2_alg».proof.Proof.Gen.ReferenceIdeal.Read
import proofs.«118852_j65051574665468_2_alg».proof.Proof.KernelScore
import proofs.«118852_j65051574665468_2_alg».proof.Proof.ReferenceScore
import proofs.«118852_j65051574665468_2_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel ends at the expanded score of its arguments, the reference at the direct score of arguments that
    agree with them; under the precondition the entries are real and the spreads positive, where the two scores are
    one array. -/
theorem algebraic : Cert.algebraic_KernelIdeal_ReferenceIdeal := by
  intro m ρ m' ρ' hpre hagree
  refine ⟨_, Cert.GaussianScore.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4, Cert.ReferenceIdeal.Read.val_main_v23_eq, Cert.GaussianScore.reference_eq_directScore]
  obtain ⟨h0, h1, h2, h3, h4⟩ := Cert.GaussianScore.inputs_of_pre _ _ _ _ _ (hpre c)
  exact (Cert.GaussianScore.expandedScore_eq_directScore _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
